-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S16384x2 : Shape := ⟨2, ![16384, 2]⟩
abbrev S64 : Shape := ⟨1, ![64]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16384x2 : S_.BroadcastsInDim S16384x2 (![] : Fin 0 → Fin S16384x2.rank)
  reducesTo_S16384x2_S_d0_1 : S16384x2.ReducesTo [0, 1] S_

variable [Facts]

def fn {F : FTy → Type} [FloatOps F] (main_arg0 : FVec F S16384x4096 .f32) (main_arg1 : FVec F S16384x2 .f32) (main_arg2 : IVec S16384x2 32) (main_arg3 : IVec S64 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x2 .f32 := Host.absf main_arg1
  let main_cst_0 : FVec F S_ .f32 := constant S_ .f32 0x7F800000#32
  let main_v5 : FVec F S16384x2 .f32 := broadcastInDim S16384x2 ![] bcast_S_S16384x2 main_cst_0
  let main_v6 : IVec S16384x2 1 := cmpf .olt main_v4 main_v5
  let main_c_1 : IVec S_ 1 := constantI S_ 1 1#1
  let main_v7 : IVec S_ 1 := (fun x v => Host.reduce IntOp.andi x v reducesTo_S16384x2_S_d0_1 h_S_) main_v6 main_c_1
  let main_v8 : IVec S_ 1 := andi main_v3 main_v7
  main_v8
-- ==== Kernel.lean ====
abbrev S16384x4096 : Shape := ⟨2, ![16384, 4096]⟩
abbrev S16384x2 : Shape := ⟨2, ![16384, 2]⟩
abbrev S64 : Shape := ⟨1, ![64]⟩
abbrev S32768 : Shape := ⟨1, ![32768]⟩
abbrev S_ : Shape := ⟨0, ![]⟩
abbrev S32768x1 : Shape := ⟨2, ![32768, 1]⟩
abbrev S256x4096 : Shape := ⟨2, ![256, 4096]⟩
abbrev S256x2 : Shape := ⟨2, ![256, 2]⟩
abbrev S256 : Shape := ⟨1, ![256]⟩
abbrev S256x1 : Shape := ⟨2, ![256, 1]⟩

abbrev nBuf : Space → Nat
  | .hbm => 19
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S16384x2, .f32⟩
  | .hbm, ⟨2, _⟩ => ⟨S16384x2, .i32⟩
  | .hbm, ⟨3, _⟩ => ⟨S64, .i32⟩
  | .hbm, ⟨4, _⟩ => ⟨S32768, .i32⟩
  | .hbm, ⟨5, _⟩ => ⟨S_, .f32⟩
  | .hbm, ⟨6, _⟩ => ⟨S64, .f32⟩
  | .hbm, ⟨7, _⟩ => ⟨S_, .i32⟩
  | .hbm, ⟨8, _⟩ => ⟨S32768, .i32⟩
  | .hbm, ⟨9, _⟩ => ⟨S32768, .i1⟩
  | .hbm, ⟨10, _⟩ => ⟨S_, .i32⟩
  | .hbm, ⟨11, _⟩ => ⟨S32768, .i32⟩
  | .hbm, ⟨12, _⟩ => ⟨S32768, .i32⟩
  | .hbm, ⟨13, _⟩ => ⟨S32768, .i32⟩
  | .hbm, ⟨14, _⟩ => ⟨S32768x1, .i32⟩
  | .hbm, ⟨15, _⟩ => ⟨S_, .f32⟩
  | .hbm, ⟨16, _⟩ => ⟨S32768, .f32⟩
  | .hbm, ⟨17, _⟩ => ⟨S64, .f32⟩
  | .hbm, ⟨18, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x2, .f32⟩
  | .local _ .vmem, ⟨3, _⟩ => ⟨S256x2, .f32⟩
  | .local _ .vmem, ⟨4, _⟩ => ⟨S256x4096, .f32⟩
  | .local _ .vmem, ⟨5, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16384x2_S32768 : S16384x2.ShapeCasts S32768
  bcast_S_S64 : S_.BroadcastsInDim S64 (![] : Fin 0 → Fin S64.rank)
  bcast_S_S32768 : S_.BroadcastsInDim S32768 (![] : Fin 0 → Fin S32768.rank)
  bcast_S32768_S32768x1_0 : S32768.BroadcastsInDim S32768x1 (![0] : Fin 1 → Fin S32768x1.rank)
  inb_S256x2_S256x2_0_0 : ∀ a, (![0, 0] : Fin 2 → Nat) a + S256x2.size a ≤ S256x2.size a
  h_S256x2 : 0 < S256x2.numel
  reduces_S256x2_S256 : S256x2.Reduces [1] S256
  shapeCasts_S256_S256x1 : S256.ShapeCasts S256x1
  inb_S256x4096_S256x4096_0_0 : ∀ a, (![0, 0] : Fin 2 → Nat) a + S256x4096.size a ≤ S256x4096.size a
  h_S256x4096 : 0 < S256x4096.numel
  broadcasts_S256x1_S256x4096 : S256x1.Broadcasts S256x4096
  scatter_S64_S32768x1_S32768_n_0_0_1_wf : ScatterDims.WF S64 S32768x1 S32768 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2.size a ≤ S16384x2.size a
  hwx0_1 : ∀ i : grid0.Coords, EltTy.bits .f32 = 32 ∨ (Rect.block (s := S16384x2) S256x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S16384x4096.size a
  hwx0_2 : ∀ i : grid0.Coords, EltTy.bits .f32 = 32 ∨ (Rect.block (s := S16384x4096) S256x4096.size (cc0_transform_2 i) (hinb0_2 i)).WholeWords (EltTy.packing .f32)

variable [Facts₀]

def scatter_S64_S32768x1_S32768_n_0_0_1 : ScatterDims S64 S32768x1 S32768 where
  updateWindowDims := []
  insertedWindowDims := [0]
  scatterDimsToOperandDims := [0]
  indexVectorDim := 1
  wf := scatter_S64_S32768x1_S32768_n_0_0_1_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S16384x2 : Shape := ⟨2, ![16384, 2]⟩
abbrev S64 : Shape := ⟨1, ![64]⟩
abbrev S32768 : Shape := ⟨1, ![32768]⟩
abbrev S_ : Shape := ⟨0, ![]⟩
abbrev S32768x1 : Shape := ⟨2, ![32768, 1]⟩
abbrev S32768x4096 : Shape := ⟨2, ![32768, 4096]⟩

abbrev nBuf : Space → Nat
  | .hbm => 72
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x2, .f32⟩
  | .hbm, ⟨2, _⟩ => ⟨S16384x2, .i32⟩
  | .hbm, ⟨3, _⟩ => ⟨S64, .i32⟩
  | .hbm, ⟨4, _⟩ => ⟨S32768, .i32⟩
  | .hbm, ⟨5, _⟩ => ⟨S_, .f32⟩
  | .hbm, ⟨6, _⟩ => ⟨S64, .f32⟩
  | .hbm, ⟨7, _⟩ => ⟨S_, .i32⟩
  | .hbm, ⟨8, _⟩ => ⟨S32768, .i32⟩
  | .hbm, ⟨9, _⟩ => ⟨S32768, .i1⟩
  | .hbm, ⟨10, _⟩ => ⟨S_, .i32⟩
  | .hbm, ⟨11, _⟩ => ⟨S32768, .i32⟩
  | .hbm, ⟨12, _⟩ => ⟨S32768, .i32⟩
  | .hbm, ⟨13, _⟩ => ⟨S32768, .i32⟩
  | .hbm, ⟨14, _⟩ => ⟨S32768x1, .i32⟩
  | .hbm, ⟨15, _⟩ => ⟨S_, .f32⟩
  | .hbm, ⟨16, _⟩ => ⟨S32768, .f32⟩
  | .hbm, ⟨17, _⟩ => ⟨S64, .f32⟩
  | .hbm, ⟨18, _⟩ => ⟨S32768, .i32⟩
  | .hbm, ⟨19, _⟩ => ⟨S32768, .i32⟩
  | .hbm, ⟨20, _⟩ => ⟨S32768, .i32⟩
  | .hbm, ⟨21, _⟩ => ⟨S32768, .f32⟩
  | .hbm, ⟨22, _⟩ => ⟨S_, .i32⟩
  | .hbm, ⟨23, _⟩ => ⟨S32768, .i32⟩
  | .hbm, ⟨24, _⟩ => ⟨S32768, .i1⟩
  | .hbm, ⟨25, _⟩ => ⟨S_, .i32⟩
  | .hbm, ⟨26, _⟩ => ⟨S32768, .i32⟩
  | .hbm, ⟨27, _⟩ => ⟨S32768, .i32⟩
  | .hbm, ⟨28, _⟩ => ⟨S32768, .i32⟩
  | .hbm, ⟨29, _⟩ => ⟨S32768x1, .i32⟩
  | .hbm, ⟨30, _⟩ => ⟨S32768, .f32⟩
  | .hbm, ⟨31, _⟩ => ⟨S_, .i32⟩
  | .hbm, ⟨32, _⟩ => ⟨S_, .i32⟩
  | .hbm, ⟨33, _⟩ => ⟨S32768, .i32⟩
  | .hbm, ⟨34, _⟩ => ⟨S32768, .i32⟩
  | .hbm, ⟨35, _⟩ => ⟨S32768, .i32⟩
  | .hbm, ⟨36, _⟩ => ⟨S_, .i32⟩
  | .hbm, ⟨37, _⟩ => ⟨S32768, .i32⟩
  | .hbm, ⟨38, _⟩ => ⟨S32768, .i1⟩
  | .hbm, ⟨39, _⟩ => ⟨S32768, .i32⟩
  | .hbm, ⟨40, _⟩ => ⟨S32768, .i32⟩
  | .hbm, ⟨41, _⟩ => ⟨S_, .i32⟩
  | .hbm, ⟨42, _⟩ => ⟨S32768, .i32⟩
  | .hbm, ⟨43, _⟩ => ⟨S32768, .i1⟩
  | .hbm, ⟨44, _⟩ => ⟨S32768, .i1⟩
  | .hbm, ⟨45, _⟩ => ⟨S_, .i32⟩
  | .hbm, ⟨46, _⟩ => ⟨S32768, .i32⟩
  | .hbm, ⟨47, _⟩ => ⟨S32768, .i32⟩
  | .hbm, ⟨48, _⟩ => ⟨S32768, .i32⟩
  | .hbm, ⟨49, _⟩ => ⟨S_, .i32⟩
  | .hbm, ⟨50, _⟩ => ⟨S32768, .i32⟩
  | .hbm, ⟨51, _⟩ => ⟨S32768, .i1⟩
  | .hbm, ⟨52, _⟩ => ⟨S_, .i32⟩
  | .hbm, ⟨53, _⟩ => ⟨S32768, .i32⟩
  | .hbm, ⟨54, _⟩ => ⟨S32768, .i32⟩
  | .hbm, ⟨55, _⟩ => ⟨S32768, .i32⟩
  | .hbm, ⟨56, _⟩ => ⟨S32768x1, .i32⟩
  | .hbm, ⟨57, _⟩ => ⟨S32768x4096, .f32⟩
  | .hbm, ⟨58, _⟩ => ⟨S32768x1, .f32⟩
  | .hbm, ⟨59, _⟩ => ⟨S32768x4096, .f32⟩
  | .hbm, ⟨60, _⟩ => ⟨S32768x4096, .f32⟩
  | .hbm, ⟨61, _⟩ => ⟨S_, .f32⟩
  | .hbm, ⟨62, _⟩ => ⟨S16384x4096, .f32⟩
  | .hbm, ⟨63, _⟩ => ⟨S_, .i32⟩
  | .hbm, ⟨64, _⟩ => ⟨S32768, .i32⟩
  | .hbm, ⟨65, _⟩ => ⟨S32768, .i1⟩
  | .hbm, ⟨66, _⟩ => ⟨S_, .i32⟩
  | .hbm, ⟨67, _⟩ => ⟨S32768, .i32⟩
  | .hbm, ⟨68, _⟩ => ⟨S32768, .i32⟩
  | .hbm, ⟨69, _⟩ => ⟨S32768, .i32⟩
  | .hbm, ⟨70, _⟩ => ⟨S32768x1, .i32⟩
  | .hbm, ⟨71, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1_0 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v19 : Ref sig .tc := ⟨.hbm, 48, rfl⟩
abbrev main_c_5 : Ref sig .tc := ⟨.hbm, 49, rfl⟩
abbrev main_v20 : Ref sig .tc := ⟨.hbm, 50, rfl⟩
abbrev main_v21 : Ref sig .tc := ⟨.hbm, 51, rfl⟩
abbrev main_c_6 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_7 : Ref sig .tc := ⟨.hbm, 61, rfl⟩
abbrev main_v30 : Ref sig .tc := ⟨.hbm, 62, rfl⟩
abbrev main_c_8 : Ref sig .tc := ⟨.hbm, 63, rfl⟩
abbrev main_v31 : Ref sig .tc := ⟨.hbm, 64, rfl⟩
abbrev main_v32 : Ref sig .tc := ⟨.hbm, 65, rfl⟩
abbrev main_c_9 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩

abbrev nD : Nat := 1
abbrev τ : Topo := Topo.v7x

variable {F : FTy → Type} [FloatOps F]

class Facts₀ : Prop where
  shapeCasts_S16384x2_S32768 : S16384x2.ShapeCasts S32768
  bcast_S_S64 : S_.BroadcastsInDim S64 (![] : Fin 0 → Fin S64.rank)
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x4096_0_1 : S32768x1.BroadcastsInDim S32768x4096 (![0, 1] : Fin 2 → Fin S32768x4096.rank)
  bcast_S_S16384x4096 : S_.BroadcastsInDim S16384x4096 (![] : Fin 0 → Fin S16384x4096.rank)
  scatter_S64_S32768x1_S32768_n_0_0_1_wf : ScatterDims.WF S64 S32768x1 S32768 [] [0] [0] 1
  gather_S32768_S32768x1_S32768_n_0_n_n_0_1_1_wf : GatherDims.WF S32768 S32768x1 S32768 [] [0] [] [0] [] 1 ![1]
  gather_S16384x4096_S32768x1_S32768x4096_1_0_n_n_0_1_14096_wf : GatherDims.WF S16384x4096 S32768x1 S32768x4096 [1] [0] [] [0] [] 1 ![1, 4096]
  scatter_S16384x4096_S32768x1_S32768x4096_1_0_0_1_wf : ScatterDims.WF S16384x4096 S32768x1 S32768x4096 [1] [0] [0] 1

variable [Facts₀]

def scatter_S64_S32768x1_S32768_n_0_0_1 : ScatterDims S64 S32768x1 S32768 where
  updateWindowDims := []
  insertedWindowDims := [0]
  scatterDimsToOperandDims := [0]
  indexVectorDim := 1
  wf := scatter_S64_S32768x1_S32768_n_0_0_1_wf
def comparator_i32_i32_d0 : BitVec 32 × BitVec 32 → BitVec 32 × BitVec 32 → BitVec 1 :=
  fun l r =>
    let v2 := IntOp.cmpi .slt l.1 r.1
    v2
def gather_S32768_S32768x1_S32768_n_0_n_n_0_1_1 : GatherDims S32768 S32768x1 S32768 where
  offsetDims := []
  collapsedSliceDims := [0]
  operandBatchingDims := []
  startIndicesBatchingDims := []
  startIndexMap := [0]
  indexVectorDim := 1
  sliceSizes := ![1]
  wf := gather_S32768_S32768x1_S32768_n_0_n_n_0_1_1_wf
def gather_S16384x4096_S32768x1_S32768x4096_1_0_n_n_0_1_14096 : GatherDims S16384x4096 S32768x1 S32768x4096 where
  offsetDims := [1]
  collapsedSliceDims := [0]
  operandBatchingDims := []
  startIndicesBatchingDims := []
  startIndexMap := [0]
  indexVectorDim := 1
  sliceSizes := ![1, 4096]
  wf := gather_S16384x4096_S32768x1_S32768x4096_1_0_n_n_0_1_14096_wf
def scatter_S16384x4096_S32768x1_S32768x4096_1_0_0_1 : ScatterDims S16384x4096 S32768x1 S32768x4096 where
  updateWindowDims := [1]
  insertedWindowDims := [0]
  scatterDimsToOperandDims := [0]
  indexVectorDim := 1
  wf := scatter_S16384x4096_S32768x1_S32768x4096_1_0_0_1_wf

class Facts : Prop extends Facts₀ where

variable [Facts]
-- ==== Proof.KernelArrayRow.lean ====
/-
  One entry of the block a grid point leaves.

  At a grid point the body holds a 256 × 4096 block of `x` and the 256 × 2 block of the same rows' scores. It adds each
  row's two scores (a sum over the lane axis of the score block), lays that column of 256 sums out across the 4096
  lanes and multiplies the `x` block by it, entry by entry. So the entry at row `r`, lane `d` of what it leaves is the
  `x` block's entry there times the sum of row `r`'s two scores: on the extended reals, where a product is the
  product and a lane sum is the sum.
-/
import proofs.«145637_j22874995818747_2_alg».proof.Proof.Gen.KernelIdeal.Value
import Idealize.ShloMosaic.Lib.ValueIdx
import Idealize.ShloMosaic.PureOps.Ideal.Laws

noncomputable section

namespace Cert.KernelIdeal.RowScaled

open Cert.KernelIdeal Cert.KernelIdeal.Gen Idealize.ShloMosaic Idealize.ShloMosaic.TcCoe Idealize.SL.Sem
open Idealize.ShloMosaic.ValueIdx

/-- The source index of the lane sum over row `r` whose lane coordinate is `k` is the score block's index `(r, k)`. -/
theorem lane_index (r : Fin 256) (k : Fin 2) :
    (reduces_S256x2_S256 : S256x2.Reduces [1] S256).lift (ix1 r) k = ix2 r k := by
  funext a
  apply Fin.ext
  match a with
  | ⟨0, _⟩ => rfl
  | ⟨1, _⟩ => rfl

/-- The lane sum of a 256 × 2 block of scores, at row `r`, is the row's two scores added. -/
theorem lane_sum (P1 : FVec Ideal S256x2 .f32) (hφ : FKind.Formats .f32)
    (hacc : (0x00000000#32 : BitVec 32) = FKind.add.neutral .f32 hφ) (r : Fin 256) :
    multiReduction .add [1] S256 P1 0x00000000#32 reduces_S256x2_S256 hφ hacc (ix1 r)
      = P1 (ix2 r (0 : Fin 2)) + P1 (ix2 r (1 : Fin 2)) := by
  refine (Ideal.multiReduction_add_single P1 0x00000000#32 reduces_S256x2_S256 hφ hacc (ix1 r)).trans ?_
  refine (Fin.sum_univ_two (fun k : Fin 2 => P1 ((reduces_S256x2_S256 : S256x2.Reduces [1] S256).lift (ix1 r) k))).trans ?_
  rw [lane_index r 0, lane_index r 1]

/-- THE BLOCK'S ENTRY at row `r`, lane `d`: the `x` block's entry times the sum of the row's two scores. -/
theorem block_entry (P0 : FVec Ideal S256x4096 .f32) (P1 : FVec Ideal S256x2 .f32) (r : Fin 256) (d : Fin 4096) :
    (Value.E2 (F := Ideal) P0 P1 (ix2 r d) : EReal) = P0 (ix2 r d) * (P1 (ix2 r (0 : Fin 2)) + P1 (ix2 r (1 : Fin 2))) := by
  have e0 : Value.ix2_0 (ix2 r d) = ix2 r d := by
    funext a; match a with | ⟨0, _⟩ => rfl | ⟨1, _⟩ => rfl
  have e1 : Value.ix2_1 (ix2 r d) = ix1 r := by
    funext a; match a with | ⟨0, _⟩ => rfl
  show P0 (Value.ix2_0 (ix2 r d)) * (multiReduction .add [1] S256 P1 0x00000000#32 reduces_S256x2_S256 (.inl rfl) rfl) (Value.ix2_1 (ix2 r d)) = _
  rw [e0, e1, lane_sum P1 (.inl rfl) rfl r]

end Cert.KernelIdeal.RowScaled

end
-- ==== Proof.RowScale.lean ====
/-
  The function both programs compute: every row of `x` scaled by the sum of that row's two scores.

  The kernel forms the sum of a token's two scores first and multiplies the token's row of `x` by it; the
  reference multiplies the row by each score separately (after sorting the 32768 (token, choice) slots by expert) and
  adds the two products back into the token's row. `scaled` is the kernel's spelling, entry by entry.
-/
import Idealize.ShloMosaic.PureOps.Ideal
import Idealize.ShloMosaic.Lib.ValueIdx

noncomputable section

namespace Cert.RowScale

open Idealize.ShloMosaic Idealize.ShloMosaic.ValueIdx

/-- Entry `(t, d)` of the result: `x (t, d) * (s (t, 0) + s (t, 1))` on the extended reals. -/
def scaled (x : (⟨2, ![16384, 4096]⟩ : Shape).Idx → EReal) (s : (⟨2, ![16384, 2]⟩ : Shape).Idx → EReal) :
    (⟨2, ![16384, 4096]⟩ : Shape).Idx → EReal :=
  fun i => x i * (s (ix2 (⟨(i 0).val, idx2_lt0 i⟩ : Fin 16384) (0 : Fin 2))
                + s (ix2 (⟨(i 0).val, idx2_lt0 i⟩ : Fin 16384) (1 : Fin 2)))

end Cert.RowScale

end
-- ==== Proof.KernelArrayBlocks.lean ====
/-
  From row blocks to the array.

  The launch runs over 64 grid points; point `t` holds rows `256 t … 256 t + 255` of `x`, the same rows of the scores,
  and writes the same rows of the result. What it writes there is, entry by entry, the `x` block's entry times the sum
  of its row's two scores — which is the row-scaled array read through the point's block, because all three blocks sit
  at block row `t`, block column 0 of their arrays. The 64 blocks cover the 16384 rows (row `r` is in block `r / 256`),
  so after the run the result array is the row-scaled array.
-/
import proofs.«145637_j22874995818747_2_alg».proof.Proof.KernelArrayRow
import proofs.«145637_j22874995818747_2_alg».proof.Proof.RowScale
import Idealize.ShloMosaic.Lib.Pipeline.Value
import Idealize.ShloMosaic.Lib.ValueIdx

noncomputable section

namespace Cert.KernelIdeal.RowScaled

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The body reads and writes its staging buffers from their origin. -/
theorem origin : (![0, 0] : Fin 2 → Nat) = fun _ => 0 := funext fun a => by fin_cases a <;> rfl

/-- At grid point `t` each of the three windows is at block row `t`, block column 0 (decided over the 64 points). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

/-- An entry of a point's block is the row-scaled array's entry at `i` as soon as the `x` block's entry is `X i` and the
    score block's row is row `i 0` of `S`. -/
theorem entry_of_reads (X : S16384x4096.Idx → EReal) (S : S16384x2.Idx → EReal)
    (P0 : FVec Ideal S256x4096 .f32) (P1 : FVec Ideal S256x2 .f32) (y : S256x4096.Idx) (i : S16384x4096.Idx)
    (h0 : P0 y = X i)
    (h1 : ∀ k : Fin 2, P1 (ix2 (⟨(y 0).val, idx2_lt0 y⟩ : Fin 256) k) = S (ix2 (⟨(i 0).val, idx2_lt0 i⟩ : Fin 16384) k)) :
    (Value.E2 (F := Ideal) P0 P1 y : EReal) = Cert.RowScale.scaled X S i := by
  obtain ⟨r, d, rfl⟩ : ∃ (r : Fin 256) (d : Fin 4096), y = ix2 r d := ⟨y 0, y 1, eq_ix2 y⟩
  rw [block_entry]
  show _ = X i * (S (ix2 (⟨(i 0).val, idx2_lt0 i⟩ : Fin 16384) (0 : Fin 2)) + S (ix2 (⟨(i 0).val, idx2_lt0 i⟩ : Fin 16384) (1 : Fin 2)))
  rw [← h0, ← h1 0, ← h1 1]

/-- WHAT POINT `t` WRITES BACK is block `t` of the row-scaled array of the arrays as the region finds them. -/
theorem flushed_eq (c : Dev nD) (t : Fin cfg0.N) :
    (dats m 0 c).flushed 2 t = ((cfg0.win 2).blk t).view.read (Elt Ideal)
      (Cert.RowScale.scaled (V m c main_arg0) (V m c main_arg1)) := by
  rw [Value.flushed2]
  unfold Gen.out0_2
  simp only [View.ld_unit_zero (S := S256x4096) origin, View.ld_unit_zero (S := S256x2) origin]
  obtain ⟨e00, e01, e10, e11, e20, e21⟩ := block_index t
  funext y
  have hy0 : (y 0).val < 256 := (y 0).isLt
  have hy1 : (y 1).val < 4096 := (y 1).isLt
  show View.canon [(⟨r0_1, k0_pay1 (iblk m c 1 t) (iblk m c 0 t)⟩ : View.Piece (Elt Ideal) S256x4096 .f32)] y
    = Cert.RowScale.scaled (V m c main_arg0) (V m c main_arg1) (((cfg0.win 2).blk t).view.emb y)
  refine (Value.canon2_eq (iblk m c 0 t) (iblk m c 1 t) y).trans ?_
  refine entry_of_reads (V m c main_arg0) (V m c main_arg1) (iblk m c 0 t) (iblk m c 1 t) y _ ?_ ?_
  · show V m c main_arg0 (((cfg0.win 0).blk t).view.emb y) = V m c main_arg0 (((cfg0.win 2).blk t).view.emb y)
    refine congrArg _ ?_
    funext a; apply Fin.ext
    match a with
    | ⟨0, _⟩ => show win0_0.index t (0 : Fin 2) * 256 + 1 * (y 0).val = win0_2.index t (0 : Fin 2) * 256 + 1 * (y 0).val; omega
    | ⟨1, _⟩ => show win0_0.index t (1 : Fin 2) * 4096 + 1 * (y 1).val = win0_2.index t (1 : Fin 2) * 4096 + 1 * (y 1).val; omega
  · intro k
    show V m c main_arg1 (((cfg0.win 1).blk t).view.emb (ix2 (⟨(y 0).val, idx2_lt0 y⟩ : Fin 256) k)) = V m c main_arg1 _
    refine congrArg _ ?_
    funext a; apply Fin.ext
    match a with
    | ⟨0, _⟩ => show win0_1.index t (0 : Fin 2) * 256 + 1 * (y 0).val = win0_2.index t (0 : Fin 2) * 256 + 1 * (y 0).val; omega
    | ⟨1, _⟩ => show win0_1.index t (1 : Fin 2) * 2 + 1 * k.val = k.val; omega

/-- An index of the result array is in point `t`'s block iff each coordinate is in the block's range on its axis. -/
theorem mem_block (t : Fin cfg0.N) (i : S16384x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v10).slice (win0_2.rect t)).set ↔ _
  rw [View.set_slice_whole, Rect.mem_set_unit]
  exact Iff.rfl

/-- THE ROW BLOCKS COVER THE ARRAY: row `r` is in the block of point `r / 256`. -/
theorem cover (i : S16384x4096.Idx) :
    ∃ t : Fin cfg0.N, (cfg0.win 2).flush t = true ∧ i ∈ ((cfg0.win 2).blk t).view.set := by
  have hN : cfg0.N = 64 := Gen.N_0
  have hi0 : (i 0).val < 16384 := (i 0).isLt
  have hi1 : (i 1).val < 4096 := (i 1).isLt
  obtain ⟨t, ht⟩ : ∃ t : Fin cfg0.N, t.val = (i 0).val / 256 := ⟨⟨(i 0).val / 256, by rw [hN]; omega⟩, rfl⟩
  obtain ⟨-, -, -, -, e20, e21⟩ := block_index t
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- THE ARRAY after the run is the row-scaled array of the two arguments. -/
theorem final (c : Dev nD) :
    (dats m 0 c).arrAt 2 cfg0.N
      = Cert.RowScale.scaled (m ((c : Thread nD τ).loc main_arg0)) (m ((c : Thread nD τ).loc main_arg1)) := by
  have h := (dats m 0 c).arrAt_eq_of_cover 2 (Cert.RowScale.scaled (V m c main_arg0) (V m c main_arg1))
    (fun t _ => flushed_eq m c t) cover
  rw [V_main_arg0, V_main_arg1] at h
  exact h

end Cert.KernelIdeal.RowScaled

end
-- ==== Proof.KernelArray.lean ====
/-
  The kernel's run, read: after it the result array is the row-scaled array, the histogram buffer is the scatter-add
  of a one per slot at the slot's expert id into 64 zero bins, and the four arguments are as launched.

  The result array: the launch's 64 row blocks cover it, and each point writes its 256 rows scaled. The histogram: no
  window of the launch stages its buffer, so the run leaves it as the launch found it — and the launch found it at what
  the host operations before it computed, which is the scatter-add's term over the third argument.
-/
import proofs.«145637_j22874995818747_2_alg».proof.Proof.KernelArrayBlocks
import Idealize.ShloMosaic.Lib.StableHlo.Run

noncomputable section

namespace Cert.KernelIdeal.RowScaled

open Cert.KernelIdeal Cert.KernelIdeal.Gen Idealize.ShloMosaic Idealize.ShloMosaic.TcCoe Idealize.SL.Sem
open Idealize.ShloMosaic.Pipeline (Dat)

/-- the histogram: a zero array of 64 bins with a one added per slot at the slot's (wrapped) expert id -/
def counts (ids : IVec S16384x2 32) : FVec Ideal S64 .f32 :=
  Host.scatterAdd scatter_S64_S32768x1_S32768_n_0_0_1
    (broadcastInDim S64 ![] bcast_S_S64 (constant S_ .f32 0x00000000#32))
    (broadcastInDim S32768x1 ![0] bcast_S32768_S32768x1_0
      (select (cmpi .slt (shapeCast S32768 ids shapeCasts_S16384x2_S32768) (broadcastInDim S32768 ![] bcast_S_S32768 (constantI S_ 32 0#32)))
              (addi (shapeCast S32768 ids shapeCasts_S16384x2_S32768) (broadcastInDim S32768 ![] bcast_S_S32768 (constantI S_ 32 64#32)))
              (shapeCast S32768 ids shapeCasts_S16384x2_S32768)))
    (broadcastInDim S32768 ![] bcast_S_S32768 (constant S_ .f32 0x3F800000#32))

variable (m : (ℓ : Loc nD τ sig) → Buf (Elt Ideal) ℓ) (ρ : Dev nD → PrngReg)

attribute [local irreducible] Host.scatterAdd in
/-- The histogram buffer as the launch finds it: the host operations' term over the third argument. -/
theorem histogram_eq (c : Dev nD) :
    (V m c main_v9 : S64.Idx → EReal) = counts (m ((c : Thread nD τ).loc main_arg2)) := by
  dsimp only [Gen.V, Gen.hostOps0]
  after_results
  rfl

/-- THE RUN, READ: from any memory with zero counters every weakly fair execution terminates, and then the result array is
    the row-scaled array of the first two arguments, the histogram buffer is `counts` of the third, and the four arguments
    are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v10) = Cert.RowScale.scaled (m ((c : Thread nD τ).loc main_arg0)) (m ((c : Thread nD τ).loc main_arg1))
      ∧ r.2.mem ((c : Thread nD τ).loc main_v9) = counts (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(Value.post2 m r h c).trans (final m c),
      ((h c).2 main_v9 (Pipeline.mem_restRefs_of main_v9 (by decide) (by decide))).trans (histogram_eq m c),
      Value.kept_main_arg0 m r h c,
      Value.kept_main_arg1 m r h c,
      Value.kept_main_arg2 m r h c,
      Value.kept_main_arg3 m r h c⟩)
    (run_main m ρ)

end Cert.KernelIdeal.RowScaled

end
-- ==== Proof.RefStages.lean ====
/-
  The reference's two results as pure functions of its arguments, stage by stage.

  The reference flattens the expert ids to 32768 keys, counts them into 64 bins (a scatter-add of ones),
  sorts the keys stably carrying their positions (`order`: a permutation of the 32768 slots), reads the
  flattened scores through that permutation (`sortedScores`), halves each position with rounding toward
  minus infinity to get the slot's token (`token`), gathers the token's row of `x`, scales it by the slot's
  score (`routed`) and adds every slot's row back into its token's row of a zero array (`out`).
  An index read off an integer array is first wrapped (`wrap`: a negative word has the axis extent added),
  as jnp indexing does.
-/
import proofs.«145637_j22874995818747_2_alg».proof.Proof.Gen.ReferenceIdeal

noncomputable section

namespace Cert.ReferenceIdeal.Stages

open Idealize.ShloMosaic Cert.ReferenceIdeal Cert.ReferenceIdeal.Gen

variable {F : FTy → Type} [FloatOps F]

/-- A scalar integer word on every one of the 32768 slots. -/
def splatI (n : BitVec 32) : IVec S32768 32 :=
  broadcastInDim S32768 ![] bcast_S_S32768 (constantI S_ 32 n)

/-- jnp's index wrap: a negative word has the axis extent `n` added, another word is kept. -/
def wrap (n : BitVec 32) (v : IVec S32768 32) : IVec S32768 32 :=
  select (cmpi .slt v (splatI 0#32)) (addi v (splatI n)) v

/-- A vector of 32768 words as the one-column index array a gather or scatter reads. -/
def col (v : IVec S32768 32) : IVec S32768x1 32 :=
  broadcastInDim S32768x1 ![0] bcast_S32768_S32768x1_0 v

/-- The expert ids, flattened row-major: slot `2 t + k` holds the id of token `t`'s choice `k`. -/
def flatIds (ids : IVec S16384x2 32) : IVec S32768 32 :=
  shapeCast S32768 ids shapeCasts_S16384x2_S32768

/-- The histogram of the expert ids: a zero array of 64 bins with a one added per slot at the slot's id. -/
def counts (ids : IVec S16384x2 32) : FVec F S64 .f32 :=
  Host.scatterAdd scatter_S64_S32768x1_S32768_n_0_0_1
    (broadcastInDim S64 ![] bcast_S_S64 (constant S_ .f32 0x00000000#32))
    (col (wrap 64#32 (flatIds ids)))
    (broadcastInDim S32768 ![] bcast_S_S32768 (constant S_ .f32 0x3F800000#32))

/-- The stable argsort of the flattened ids: position `s` holds the slot that the sort puts at `s`. -/
def order (ids : IVec S16384x2 32) : IVec S32768 32 :=
  (Host.sort2 S32768 0 comparator_i32_i32_d0 (flatIds ids) (iotaInDim S32768 32 0)).2

/-- The scores, flattened row-major. -/
def flatScores (ts : FVec F S16384x2 .f32) : FVec F S32768 .f32 :=
  shapeCast S32768 ts shapeCasts_S16384x2_S32768

/-- The flattened scores read through the sort's permutation. -/
def sortedScores (ts : FVec F S16384x2 .f32) (ids : IVec S16384x2 32) : FVec F S32768 .f32 :=
  Host.gather gather_S32768_S32768x1_S32768_n_0_n_n_0_1_1 (flatScores ts) (col (wrap 32768#32 (order ids)))

/-- jnp's floor division by the scalar two, as it lowers: the truncated quotient, less one where the signs differ
    and the remainder is not zero. -/
def floorDiv2 (v : IVec S32768 32) : IVec S32768 32 :=
  let two : IVec S_ 32 := id (constantI S_ 32 2#32)
  let q : IVec S32768 32 := Host.divsi v (broadcastInDim S32768 ![] bcast_S_S32768 two)
  select
    (andi (cmpi .ne (signi v) (broadcastInDim S32768 ![] bcast_S_S32768 (signi two)))
          (cmpi .ne (Host.remsi v (broadcastInDim S32768 ![] bcast_S_S32768 two)) (splatI 0#32)))
    (subi q (splatI 1#32)) q

/-- Each sorted position's token: its slot halved. -/
def token (ids : IVec S16384x2 32) : IVec S32768 32 := floorDiv2 (order ids)

/-- Each sorted position's contribution: its token's row of `x` times the position's score. -/
def routed (x : FVec F S16384x4096 .f32) (ts : FVec F S16384x2 .f32) (ids : IVec S16384x2 32) : FVec F S32768x4096 .f32 :=
  mulf (Host.gather gather_S16384x4096_S32768x1_S32768x4096_1_0_n_n_0_1_14096 x (col (wrap 16384#32 (token ids))))
    (broadcastInDim S32768x4096 ![0, 1] bcast_S32768x1_S32768x4096_0_1
      (broadcastInDim S32768x1 ![0] bcast_S32768_S32768x1_0 (sortedScores ts ids)))

/-- The combined output: a zero array with every position's contribution added into its token's row. -/
def out (x : FVec F S16384x4096 .f32) (ts : FVec F S16384x2 .f32) (ids : IVec S16384x2 32) : FVec F S16384x4096 .f32 :=
  Host.scatterAdd scatter_S16384x4096_S32768x1_S32768x4096_1_0_0_1
    (broadcastInDim S16384x4096 ![] bcast_S_S16384x4096 (constant S_ .f32 0x00000000#32))
    (col (wrap 16384#32 (token ids)))
    (routed x ts ids)

end Cert.ReferenceIdeal.Stages

end
-- ==== Proof.RefRun.lean ====
/-
  The reference's run, read back.

  The reference's entry function is a straight line of 68 array operations once its three outlined helper
  functions are inlined at their call sites: the stable argsort (an iota and the two components of the
  two-operand sort), the floor division by the scalar two (sixteen operations) and, inside it, the
  three-operand select. This module lists those operations in program order, shows that the entry function
  is exactly that line, and reads the line's effect on memory: every execution terminates, the combined
  output buffer holds `Stages.out` of the three argument arrays, the histogram buffer holds
  `Stages.counts` of the expert ids, and the four argument buffers are unchanged.

  Nothing here looks inside the sort, the gathers, the scatter-adds or the integer division: the equalities
  are between the composed term the line computes and the stage definitions, which are that same term
  named stage by stage.
-/
import proofs.«145637_j22874995818747_2_alg».proof.Proof.RefStages
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The entry function's 68 operations, in order, the helper functions' operations listed where they are called
    (over the buffers of that call). -/
abbrev ops : List (HloOp τ sig (Elt F)) :=
  [ -- the ids flattened, and their histogram
    reshape main_arg2 main_v0 rfl shapeCasts_S16384x2_S32768,
    nullary main_cst (constant S_ .f32 0x00000000#32),
    unary main_cst main_v1 (broadcastInDim S64 ![] bcast_S_S64 : (⟨S_, .f32⟩ : BufTy).Contents (Elt F) → (⟨S64, .f32⟩ : BufTy).Contents (Elt F)),
    nullary main_c (constantI S_ 32 0#32),
    unary main_c main_v2 (broadcastInDim S32768 ![] bcast_S_S32768 : (⟨S_, .i32⟩ : BufTy).Contents (Elt F) → (⟨S32768, .i32⟩ : BufTy).Contents (Elt F)),
    binary main_v0 main_v2 main_v3 (cmpi .slt : (⟨S32768, .i32⟩ : BufTy).Contents (Elt F) → (⟨S32768, .i32⟩ : BufTy).Contents (Elt F) → (⟨S32768, .i1⟩ : BufTy).Contents (Elt F)),
    nullary main_c_0 (constantI S_ 32 64#32),
    unary main_c_0 main_v4 (broadcastInDim S32768 ![] bcast_S_S32768 : (⟨S_, .i32⟩ : BufTy).Contents (Elt F) → (⟨S32768, .i32⟩ : BufTy).Contents (Elt F)),
    binary main_v0 main_v4 main_v5 (addi : (⟨S32768, .i32⟩ : BufTy).Contents (Elt F) → (⟨S32768, .i32⟩ : BufTy).Contents (Elt F) → (⟨S32768, .i32⟩ : BufTy).Contents (Elt F)),
    ternary main_v3 main_v5 main_v0 main_v6 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v6 main_v7 (broadcastInDim S32768x1 ![0] bcast_S32768_S32768x1_0 : (⟨S32768, .i32⟩ : BufTy).Contents (Elt F) → (⟨S32768x1, .i32⟩ : BufTy).Contents (Elt F)),
    nullary main_cst_1 (constant S_ .f32 0x3F800000#32),
    unary main_cst_1 main_v8 (broadcastInDim S32768 ![] bcast_S_S32768 : (⟨S_, .f32⟩ : BufTy).Contents (Elt F) → (⟨S32768, .f32⟩ : BufTy).Contents (Elt F)),
    ternary main_v1 main_v7 main_v8 main_v9 ((fun x i u => Host.scatterAdd scatter_S64_S32768x1_S32768_n_0_0_1 x i u) : (⟨S64, .f32⟩ : BufTy).Contents (Elt F) → (⟨S32768x1, .i32⟩ : BufTy).Contents (Elt F) → (⟨S32768, .f32⟩ : BufTy).Contents (Elt F) → (⟨S64, .f32⟩ : BufTy).Contents (Elt F)),
    -- the stable argsort of the flattened ids: the positions, then the two components of the sort
    TRef.nullary main_call0.v0 (iotaInDim S32768 32 0),
    TRef.binary (TRef.of main_v0 : TRef sig ⟨S32768, .i32⟩) main_call0.v0 main_call0.v1_0 (fun x y => (Host.sort2 S32768 0 comparator_i32_i32_d0 x y).1),
    TRef.binary (TRef.of main_v0 : TRef sig ⟨S32768, .i32⟩) main_call0.v0 main_call0.v1_1 (fun x y => (Host.sort2 S32768 0 comparator_i32_i32_d0 x y).2),
    -- the flattened scores read through the permutation
    reshape main_arg1 main_v11 rfl shapeCasts_S16384x2_S32768,
    nullary main_c_2 (constantI S_ 32 0#32),
    unary main_c_2 main_v12 (broadcastInDim S32768 ![] bcast_S_S32768 : (⟨S_, .i32⟩ : BufTy).Contents (Elt F) → (⟨S32768, .i32⟩ : BufTy).Contents (Elt F)),
    binary main_v10 main_v12 main_v13 (cmpi .slt : (⟨S32768, .i32⟩ : BufTy).Contents (Elt F) → (⟨S32768, .i32⟩ : BufTy).Contents (Elt F) → (⟨S32768, .i1⟩ : BufTy).Contents (Elt F)),
    nullary main_c_3 (constantI S_ 32 32768#32),
    unary main_c_3 main_v14 (broadcastInDim S32768 ![] bcast_S_S32768 : (⟨S_, .i32⟩ : BufTy).Contents (Elt F) → (⟨S32768, .i32⟩ : BufTy).Contents (Elt F)),
    binary main_v10 main_v14 main_v15 (addi : (⟨S32768, .i32⟩ : BufTy).Contents (Elt F) → (⟨S32768, .i32⟩ : BufTy).Contents (Elt F) → (⟨S32768, .i32⟩ : BufTy).Contents (Elt F)),
    ternary main_v13 main_v15 main_v10 main_v16 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v16 main_v17 (broadcastInDim S32768x1 ![0] bcast_S32768_S32768x1_0 : (⟨S32768, .i32⟩ : BufTy).Contents (Elt F) → (⟨S32768x1, .i32⟩ : BufTy).Contents (Elt F)),
    binary main_v11 main_v17 main_v18 ((fun x i => Host.gather gather_S32768_S32768x1_S32768_n_0_n_n_0_1_1 x i) : (⟨S32768, .f32⟩ : BufTy).Contents (Elt F) → (⟨S32768x1, .i32⟩ : BufTy).Contents (Elt F) → (⟨S32768, .f32⟩ : BufTy).Contents (Elt F)),
    nullary main_c_4 (constantI S_ 32 2#32),
    -- the floor division of the permutation by two: truncated quotient, corrected where signs differ and the remainder is not zero
    TRef.unary (TRef.of main_c_4 : TRef sig ⟨S_, .i32⟩) main_call1.v0 id,
    TRef.unary main_call1.v0 main_call1.v1 (broadcastInDim S32768 ![] bcast_S_S32768),
    TRef.binary (TRef.of main_v10 : TRef sig ⟨S32768, .i32⟩) main_call1.v1 main_call1.v2 Host.divsi,
    TRef.unary (TRef.of main_v10 : TRef sig ⟨S32768, .i32⟩) main_call1.v3 signi,
    TRef.unary main_call1.v0 main_call1.v4 signi,
    TRef.unary main_call1.v4 main_call1.v5 (broadcastInDim S32768 ![] bcast_S_S32768),
    TRef.binary main_call1.v3 main_call1.v5 main_call1.v6 (cmpi .ne),
    TRef.unary main_call1.v0 main_call1.v7 (broadcastInDim S32768 ![] bcast_S_S32768),
    TRef.binary (TRef.of main_v10 : TRef sig ⟨S32768, .i32⟩) main_call1.v7 main_call1.v8 Host.remsi,
    TRef.nullary main_call1.c (constantI S_ 32 0#32),
    TRef.unary main_call1.c main_call1.v9 (broadcastInDim S32768 ![] bcast_S_S32768),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S32768 ![] bcast_S_S32768),
    TRef.binary main_call1.v2 main_call1.v12 main_call1.v13 subi,
    TRef.ternary main_call1.v11 main_call1.v13 main_call1.v2 main_call1.call0.v0 select,
    -- each position's token row of x, scaled by the position's score
    nullary main_c_5 (constantI S_ 32 0#32),
    unary main_c_5 main_v20 (broadcastInDim S32768 ![] bcast_S_S32768 : (⟨S_, .i32⟩ : BufTy).Contents (Elt F) → (⟨S32768, .i32⟩ : BufTy).Contents (Elt F)),
    binary main_v19 main_v20 main_v21 (cmpi .slt : (⟨S32768, .i32⟩ : BufTy).Contents (Elt F) → (⟨S32768, .i32⟩ : BufTy).Contents (Elt F) → (⟨S32768, .i1⟩ : BufTy).Contents (Elt F)),
    nullary main_c_6 (constantI S_ 32 16384#32),
    unary main_c_6 main_v22 (broadcastInDim S32768 ![] bcast_S_S32768 : (⟨S_, .i32⟩ : BufTy).Contents (Elt F) → (⟨S32768, .i32⟩ : BufTy).Contents (Elt F)),
    binary main_v19 main_v22 main_v23 (addi : (⟨S32768, .i32⟩ : BufTy).Contents (Elt F) → (⟨S32768, .i32⟩ : BufTy).Contents (Elt F) → (⟨S32768, .i32⟩ : BufTy).Contents (Elt F)),
    ternary main_v21 main_v23 main_v19 main_v24 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v24 main_v25 (broadcastInDim S32768x1 ![0] bcast_S32768_S32768x1_0 : (⟨S32768, .i32⟩ : BufTy).Contents (Elt F) → (⟨S32768x1, .i32⟩ : BufTy).Contents (Elt F)),
    binary main_arg0 main_v25 main_v26 ((fun x i => Host.gather gather_S16384x4096_S32768x1_S32768x4096_1_0_n_n_0_1_14096 x i) : (⟨S16384x4096, .f32⟩ : BufTy).Contents (Elt F) → (⟨S32768x1, .i32⟩ : BufTy).Contents (Elt F) → (⟨S32768x4096, .f32⟩ : BufTy).Contents (Elt F)),
    unary main_v18 main_v27 (broadcastInDim S32768x1 ![0] bcast_S32768_S32768x1_0 : (⟨S32768, .f32⟩ : BufTy).Contents (Elt F) → (⟨S32768x1, .f32⟩ : BufTy).Contents (Elt F)),
    unary main_v27 main_v28 (broadcastInDim S32768x4096 ![0, 1] bcast_S32768x1_S32768x4096_0_1 : (⟨S32768x1, .f32⟩ : BufTy).Contents (Elt F) → (⟨S32768x4096, .f32⟩ : BufTy).Contents (Elt F)),
    binary main_v26 main_v28 main_v29 (mulf : (⟨S32768x4096, .f32⟩ : BufTy).Contents (Elt F) → (⟨S32768x4096, .f32⟩ : BufTy).Contents (Elt F) → (⟨S32768x4096, .f32⟩ : BufTy).Contents (Elt F)),
    -- the contributions added into a zero array at their token rows
    nullary main_cst_7 (constant S_ .f32 0x00000000#32),
    unary main_cst_7 main_v30 (broadcastInDim S16384x4096 ![] bcast_S_S16384x4096 : (⟨S_, .f32⟩ : BufTy).Contents (Elt F) → (⟨S16384x4096, .f32⟩ : BufTy).Contents (Elt F)),
    nullary main_c_8 (constantI S_ 32 0#32),
    unary main_c_8 main_v31 (broadcastInDim S32768 ![] bcast_S_S32768 : (⟨S_, .i32⟩ : BufTy).Contents (Elt F) → (⟨S32768, .i32⟩ : BufTy).Contents (Elt F)),
    binary main_v19 main_v31 main_v32 (cmpi .slt : (⟨S32768, .i32⟩ : BufTy).Contents (Elt F) → (⟨S32768, .i32⟩ : BufTy).Contents (Elt F) → (⟨S32768, .i1⟩ : BufTy).Contents (Elt F)),
    nullary main_c_9 (constantI S_ 32 16384#32),
    unary main_c_9 main_v33 (broadcastInDim S32768 ![] bcast_S_S32768 : (⟨S_, .i32⟩ : BufTy).Contents (Elt F) → (⟨S32768, .i32⟩ : BufTy).Contents (Elt F)),
    binary main_v19 main_v33 main_v34 (addi : (⟨S32768, .i32⟩ : BufTy).Contents (Elt F) → (⟨S32768, .i32⟩ : BufTy).Contents (Elt F) → (⟨S32768, .i32⟩ : BufTy).Contents (Elt F)),
    ternary main_v32 main_v34 main_v19 main_v35 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v35 main_v36 (broadcastInDim S32768x1 ![0] bcast_S32768_S32768x1_0 : (⟨S32768, .i32⟩ : BufTy).Contents (Elt F) → (⟨S32768x1, .i32⟩ : BufTy).Contents (Elt F)),
    ternary main_v30 main_v36 main_v29 main_v37 ((fun x i u => Host.scatterAdd scatter_S16384x4096_S32768x1_S32768x4096_1_0_0_1 x i u) : (⟨S16384x4096, .f32⟩ : BufTy).Contents (Elt F) → (⟨S32768x1, .i32⟩ : BufTy).Contents (Elt F) → (⟨S32768x4096, .f32⟩ : BufTy).Contents (Elt F) → (⟨S16384x4096, .f32⟩ : BufTy).Contents (Elt F)) ]

-- sixty-eight binds re-associated: the rewrite under the chain recurses once per statement
set_option maxRecDepth 2048 in
/-- The entry function is that straight line: with the helper functions' definitions unfolded at their calls,
    both sides are one chain of operation steps once sequencing is re-associated. -/
theorem main_eq (c : Dev nD) : main (F := F) c = seq ops := by
  simp only [main, fn_argsort.body, fn_floor_divide.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    unary_bufs_sub .., ternary_bufs_sub ..,
    nullary_bufs_sub .., binary_bufs_sub .., binary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., nullary_bufs_sub .., unary_bufs_sub .., binary_bufs_sub .., nullary_bufs_sub ..,
    unary_bufs_sub .., binary_bufs_sub .., ternary_bufs_sub .., unary_bufs_sub .., ternary_bufs_sub ..⟩

/-! ## The line's effect, buffer by buffer

The contents of a buffer after the line are the fold of the operations' results over the launch contents. Unrolling the
fold at a result buffer gives the composed term of the operations that feed it. The helper functions' operations are
stated over buffers that carry their tensor type, so the composed term moves each value to its buffer's type and back
where a helper's value is written or read; both moves are along an equation of a type with itself, and removing them
(as equations, not by unfolding) leaves the stage definitions' own term. The sort, the gathers, the scatter-adds and the
integer division and remainder are never opened: the two sides agree argument by argument above them. -/

/-- Reading a typed buffer back at the type it was written at is the identity. -/
theorem ofBuf_toBuf {T : BufTy} (x : TRef sig T) (v : T.Contents (Elt F)) : x.ofBuf (x.toBuf v) = v := by
  obtain ⟨r, h, hd, hs⟩ := x
  subst h
  rfl

/-- A transport along an equation of a type with itself is the identity. -/
theorem cast_self {α : Sort _} (h : α = α) (a : α) : cast h a = a := eq_of_heq (cast_heq h a)

attribute [local irreducible] Host.sort2 Host.gather Host.scatterAdd Host.divsi Host.remsi in
set_option maxRecDepth 8192 in
set_option maxHeartbeats 400000 in
/-- The combined output buffer after the line: the scatter-add of the routed rows, as the stages name it. -/
theorem out_eq (V : Valuation τ sig (Elt F)) :
    after ops V (main_v37 : DevRef τ sig)
      = Stages.out (V (main_arg0 : DevRef τ sig)) (V (main_arg1 : DevRef τ sig)) (V (main_arg2 : DevRef τ sig)) := by
  after_results_simp
  simp only [ofBuf_toBuf, cast_self]
  rfl

attribute [local irreducible] Host.sort2 Host.gather Host.scatterAdd Host.divsi Host.remsi in
set_option maxRecDepth 8192 in
set_option maxHeartbeats 400000 in
/-- The histogram buffer after the line: the scatter-add of ones at the wrapped ids. -/
theorem counts_eq (V : Valuation τ sig (Elt F)) :
    after ops V (main_v9 : DevRef τ sig) = Stages.counts (V (main_arg2 : DevRef τ sig)) := by
  after_results_simp
  rfl

/-- No operation of the line writes an argument buffer. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-- On every device, for any float values, from any memory with zero counters: every weakly fair execution of the
    entry function terminates with the combined output at `Stages.out` of the argument arrays, the histogram at
    `Stages.counts` of the expert ids, and the four arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37) = Stages.out (m ((c.tc : Thread nD τ).loc main_arg0)) (m ((c.tc : Thread nD τ).loc main_arg1)) (m ((c.tc : Thread nD τ).loc main_arg2))
      ∧ r.2.mem ((c.tc : Thread nD τ).loc main_v9) = Stages.counts (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v37).trans (out_eq _),
      (h c main_v9).trans (counts_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.HandRun

end
-- ==== Proof.Words.lean ====
/-
  The integer words the reference computes from a sorted position's slot.

  A slot is a number `n` below 32768, held as the 32-bit word of `n`. Such a word is non-negative when read
  signed, so jnp's index wrap (add the extent when negative) keeps it, and its signed reading is `n` itself.
  jnp's floor division by two lowers to the truncated quotient corrected by one where the signs of dividend and
  divisor differ and the remainder is not zero; for a non-negative dividend and the divisor two the correction
  never applies (the signs differ only at `n = 0`, where the remainder is zero), and the truncated quotient of
  two non-negative words is the quotient of the numbers: the result is the word of `n / 2`.
-/
import proofs.«145637_j22874995818747_2_alg».proof.Proof.RefStages
import Idealize.ShloMosaic.Lib.ValueIdx

noncomputable section

namespace Cert.ReferenceIdeal.Words

open Idealize.ShloMosaic Cert.ReferenceIdeal Cert.ReferenceIdeal.Gen Cert.ReferenceIdeal.Stages

/-! ## One word -/

theorem mod_two32 (n : Nat) (hn : n < 2147483648) : n % 2 ^ 32 = n := Nat.mod_eq_of_lt (by omega)

/-- The word of a number below `2^31` has its sign bit clear. -/
theorem msb_ofNat (n : Nat) (hn : n < 2147483648) : (BitVec.ofNat 32 n).msb = false := by
  rw [BitVec.msb_eq_decide]; simp only [BitVec.toNat_ofNat]
  rw [mod_two32 n hn]; simp; omega

/-- Read signed, it is the number. -/
theorem toInt_ofNat (n : Nat) (hn : n < 2147483648) : (BitVec.ofNat 32 n).toInt = (n : Int) := by
  rw [BitVec.toInt_eq_toNat_cond]; simp only [BitVec.toNat_ofNat]
  rw [mod_two32 n hn, if_pos (by omega)]

/-- It is not below zero. -/
theorem not_slt_zero (n : Nat) (hn : n < 2147483648) : IntOp.cmpi .slt (BitVec.ofNat 32 n) 0#32 = 0#1 := by
  unfold IntOp.cmpi
  simp only [BitVec.slt, toInt_ofNat n hn]
  have h : ¬ ((n : Int) < 0) := by omega
  simp [h]

/-- It is the zero word only for the number zero. -/
theorem ofNat_ne_zero (n : Nat) (hn : n < 2147483648) (h0 : n ≠ 0) : BitVec.ofNat 32 n ≠ (0 : BitVec 32) := by
  intro h
  have := congrArg BitVec.toNat h
  simp only [BitVec.toNat_ofNat, mod_two32 n hn] at this
  exact h0 (by simpa using this)

/-- Division by the word two is never at a division corner. -/
theorem not_corner (x : BitVec 32) : ¬ IntOp.SDivCorner x 2#32 := by
  unfold IntOp.SDivCorner
  intro h
  rcases h with h | ⟨_, h⟩
  · exact absurd h (by decide)
  · exact absurd h (by decide)

/-- The truncated signed quotient by two is the word of `n / 2`. -/
theorem divsi_two (n : Nat) (hn : n < 2147483648) :
    IntOp.divsi .host (BitVec.ofNat 32 n) 2#32 = BitVec.ofNat 32 (n / 2) := by
  unfold IntOp.divsi
  rw [if_neg (not_corner _)]
  unfold BitVec.sdiv
  rw [msb_ofNat n hn]
  have : (2#32 : BitVec 32).msb = false := by decide
  rw [this]
  apply BitVec.eq_of_toNat_eq
  simp only [BitVec.udiv_eq, BitVec.toNat_udiv, BitVec.toNat_ofNat]
  rw [mod_two32 n hn, mod_two32 (n / 2) (by omega)]

/-- The signed remainder by two is the word of `n % 2`. -/
theorem remsi_two (n : Nat) (hn : n < 2147483648) :
    IntOp.remsi .host (BitVec.ofNat 32 n) 2#32 = BitVec.ofNat 32 (n % 2) := by
  unfold IntOp.remsi
  rw [if_neg (not_corner _)]
  unfold BitVec.srem
  rw [msb_ofNat n hn]
  have : (2#32 : BitVec 32).msb = false := by decide
  rw [this]
  apply BitVec.eq_of_toNat_eq
  simp only [BitVec.umod_eq, BitVec.toNat_umod, BitVec.toNat_ofNat]
  rw [mod_two32 n hn, mod_two32 (n % 2) (by omega)]

/-- The floor-division correction never applies: the condition "signs differ and the remainder is not zero" is
    the zero bit. -/
theorem no_correction (n : Nat) (hn : n < 2147483648) :
    IntOp.andi
      (IntOp.cmpi .ne (if BitVec.ofNat 32 n = 0 then (0 : BitVec 32) else if (BitVec.ofNat 32 n).msb then -1 else 1)
        (if (2#32 : BitVec 32) = 0 then (0 : BitVec 32) else if (2#32 : BitVec 32).msb then -1 else 1))
      (IntOp.cmpi .ne (IntOp.remsi .host (BitVec.ofNat 32 n) 2#32) 0#32) = 0#1 := by
  by_cases h0 : n = 0
  · subst h0
    rw [remsi_two 0 (by omega)]
    decide
  · rw [if_neg (ofNat_ne_zero n hn h0), msb_ofNat n hn]
    have e : IntOp.cmpi .ne (if false = true then (-1 : BitVec 32) else 1)
        (if (2#32 : BitVec 32) = 0 then (0 : BitVec 32) else if (2#32 : BitVec 32).msb then -1 else 1) = 0#1 := by decide
    rw [e]
    unfold IntOp.andi
    exact BitVec.zero_and

/-! ## The vectors of words, read at an index -/

/-- A splat word at any slot is the word. -/
theorem splatI_apply (k : BitVec 32) (i : S32768.Idx) : splatI k i = k := rfl

/-- jnp's index wrap keeps a slot whose word is a number below `2^31`. -/
theorem wrap_apply (k : BitVec 32) (v : IVec S32768 32) (i : S32768.Idx) (n : Nat) (hn : n < 2147483648)
    (hv : v i = BitVec.ofNat 32 n) : wrap k v i = BitVec.ofNat 32 n := by
  show Scalar.select (IntOp.cmpi .slt (v i) 0#32) (IntOp.addi (v i) k) (v i) = _
  rw [hv, not_slt_zero n hn]
  rfl

/-- The floor division by two of a slot whose word is the number `n` is the word of `n / 2`. -/
theorem floorDiv2_apply (v : IVec S32768 32) (i : S32768.Idx) (n : Nat) (hn : n < 2147483648)
    (hv : v i = BitVec.ofNat 32 n) : floorDiv2 v i = BitVec.ofNat 32 (n / 2) := by
  show Scalar.select
      (IntOp.andi
        (IntOp.cmpi .ne (if v i = 0 then (0 : BitVec 32) else if (v i).msb then -1 else 1)
          (if (2#32 : BitVec 32) = 0 then (0 : BitVec 32) else if (2#32 : BitVec 32).msb then -1 else 1))
        (IntOp.cmpi .ne (IntOp.remsi .host (v i) 2#32) 0#32))
      (IntOp.subi (IntOp.divsi .host (v i) 2#32) 1#32) (IntOp.divsi .host (v i) 2#32) = _
  rw [hv, no_correction n hn, divsi_two n hn]
  rfl

end Cert.ReferenceIdeal.Words

end
-- ==== Proof.LibArgsort.lean ====
/-
  A rank-1 argsort is a bijection of the positions.

  `jnp.argsort` of a rank-1 table lowers to a stable two-operand sort that carries the positions `0, 1, …, n − 1`
  beside the keys and returns the carried operand. A stable sort reads its operands through one self-map of
  the positions, and that self-map is onto, hence (the set being finite) a bijection. So the carried operand
  after the sort is the word of `σ k` at every position `k`, for a bijection `σ` of `Fin n` — whatever the
  keys and the comparator are. Nothing more is said of `σ`: it is introduced existentially and never computed.
-/
import Idealize.ShloMosaic.Lib.SortFacts

namespace Idealize.ShloMosaic

/-- The second result of a stable sort of `(keys, iota)` along the one axis of a rank-1 shape: at position `j`
    the word of `σ (j 0)`, for ONE bijection `σ` of the positions. -/
theorem Host.sort2_iota_snd {n : Nat} {α : Type} (cmp : α × BitVec 32 → α × BitVec 32 → BitVec 1)
    (keys : (⟨1, ![n]⟩ : Shape).Idx → α) :
    ∃ σ : Fin n → Fin n, Function.Bijective σ ∧
      ∀ j : (⟨1, ![n]⟩ : Shape).Idx,
        (Host.sort2 ⟨1, ![n]⟩ 0 cmp keys (iotaInDim ⟨1, ![n]⟩ 32 0)).2 j = BitVec.ofNat 32 (σ (j 0)).val := by
  refine ⟨sortedFrom (fun k k' => cmp (keys (Shape.Idx.ofFin k), iotaInDim ⟨1, ![n]⟩ 32 0 (Shape.Idx.ofFin k))
      (keys (Shape.Idx.ofFin k'), iotaInDim ⟨1, ![n]⟩ 32 0 (Shape.Idx.ofFin k')) == 1#1),
    ⟨sortedFrom_injective _, sortedFrom_surjective _⟩, fun j => ?_⟩
  unfold Host.sort2
  simp [iotaInDim]

end Idealize.ShloMosaic
-- ==== Proof.LibSlotTake.lean ====
/-
  Indexing by a column of slots: `x[idx]`, `x[idx, :]` and `.at[idx, :].add` with the integer index as an `[N, 1]` array.

  jnp lowers `x[idx]` of a flat `x : [M]` and `x[idx]` of a matrix `x : [A, B]` (whole rows) at an integer vector
  `idx : [N]` to a gather whose start indices are the column `[N, 1]`: result slot `s` (row `s`) is the operand at the
  start index `idx[s, 0]`, read signed and clamped into the axis. It lowers `y.at[idx].add(u)` of `y : [A, B]`, `u : [N, B]`
  to a scatter over the same column: update element `(s, b)` lands at `(idx[s, 0], b)`, the start read signed and NOT
  clamped, and is dropped when that is outside the operand.
-/
import Idealize.ShloMosaic.PureOps
import Idealize.ShloMosaic.Lib.ValueIdx

noncomputable section

namespace Idealize.ShloMosaic.SlotTake

open Idealize.ShloMosaic Idealize.ShloMosaic.ValueIdx

/-- Where slot `s`'s start index sits in the column of indices: `(s, 0)`. -/
abbrev colIdx {N : Nat} (s : Fin N) : (⟨2, ![N, 1]⟩ : Shape).Idx := ix2 s (0 : Fin 1)

section Gather
variable {α : Type}

/-- The dimension numbers of `x[idx]` for a flat operand `[M]`, start indices `[N, 1]`, result `[N]`. -/
abbrev flatDims (M N : Nat) (wf : GatherDims.WF ⟨1, ![M]⟩ ⟨2, ![N, 1]⟩ ⟨1, ![N]⟩ [] [0] [] [0] [] 1 ![1]) :
    GatherDims ⟨1, ![M]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- The flat gather at slot `j`: the operand at the slot's start index, read signed and clamped into `[0, M − 1]`. -/
theorem gather_flat_apply {M N w : Nat} (hM : 0 < M)
    (wf : GatherDims.WF ⟨1, ![M]⟩ ⟨2, ![N, 1]⟩ ⟨1, ![N]⟩ [] [0] [] [0] [] 1 ![1])
    (x : (⟨1, ![M]⟩ : Shape).Idx → α) (idx : IVec ⟨2, ![N, 1]⟩ w) (j : (⟨1, ![N]⟩ : Shape).Idx) :
    Host.gather (flatDims M N wf) x idx j
      = x (ix1 ⟨min (idx (colIdx (j 0))).toInt.toNat (M - 1), by omega⟩) := by
  unfold Host.gather
  congr 1
  funext a
  obtain rfl : a = 0 := Subsingleton.elim _ _
  refine Fin.ext ?_
  show (flatDims M N wf).start j idx 0 + (flatDims M N wf).batchCoord j 0 + (flatDims M N wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims M N wf).startIndexMap from List.mem_singleton.mpr rfl)]
  have hsi : (flatDims M N wf).siIdx j ⟨List.idxOf (0 : Fin 1) (flatDims M N wf).startIndexMap,
      List.idxOf_lt_length_iff.2 (List.mem_singleton.mpr rfl)⟩ = colIdx (j 0) := by
    funext b; refine Fin.ext ?_
    match b with
    | ⟨0, _⟩ => rfl
    | ⟨1, _⟩ => rfl
  rw [hsi]
  rfl

/-- The dimension numbers of `x[idx]` (whole rows) for an operand `[A, B]`, start indices `[N, 1]`, result `[N, B]`. -/
abbrev rowDims (A B N : Nat) (wf : GatherDims.WF ⟨2, ![A, B]⟩ ⟨2, ![N, 1]⟩ ⟨2, ![N, B]⟩ [1] [0] [] [0] [] 1 ![1, B]) :
    GatherDims ⟨2, ![A, B]⟩ ⟨2, ![N, 1]⟩ ⟨2, ![N, B]⟩ where
  offsetDims := [1]
  collapsedSliceDims := [0]
  operandBatchingDims := []
  startIndicesBatchingDims := []
  startIndexMap := [0]
  indexVectorDim := 1
  sliceSizes := ![1, B]
  wf := wf

/-- The row gather at `(s, b)`: the operand at row "slot `s`'s start index, read signed and clamped into `[0, A − 1]`",
    column `b`. -/
theorem gather_row_apply {A B N w : Nat} (hA : 0 < A)
    (wf : GatherDims.WF ⟨2, ![A, B]⟩ ⟨2, ![N, 1]⟩ ⟨2, ![N, B]⟩ [1] [0] [] [0] [] 1 ![1, B])
    (x : (⟨2, ![A, B]⟩ : Shape).Idx → α) (idx : IVec ⟨2, ![N, 1]⟩ w) (j : (⟨2, ![N, B]⟩ : Shape).Idx) :
    Host.gather (rowDims A B N wf) x idx j
      = x (ix2 (⟨min (idx (colIdx (j 0))).toInt.toNat (A - 1), by omega⟩ : Fin A) (⟨(j 1).val, idx2_lt1 j⟩ : Fin B)) := by
  unfold Host.gather
  congr 1
  funext a
  refine Fin.ext ?_
  match a with
  | ⟨0, _⟩ =>
    show (rowDims A B N wf).start j idx 0 + (rowDims A B N wf).batchCoord j 0 + (rowDims A B N wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims A B N wf).startIndexMap from List.mem_singleton.mpr rfl)]
    have hsi : (rowDims A B N wf).siIdx j ⟨List.idxOf (0 : Fin 2) (rowDims A B N wf).startIndexMap,
        List.idxOf_lt_length_iff.2 (List.mem_singleton.mpr rfl)⟩ = colIdx (j 0) := by
      funext b; refine Fin.ext ?_
      match b with
      | ⟨0, _⟩ => rfl
      | ⟨1, _⟩ => rfl
    rw [hsi]
    rfl
  | ⟨1, _⟩ =>
    show (rowDims A B N wf).start j idx 1 + (rowDims A B N wf).batchCoord j 1 + (rowDims A B N wf).offCoord j 1 = (j 1).val
    rw [GatherDims.batchCoord_eq_zero _ _ _ List.not_mem_nil]
    have hs : (rowDims A B N wf).start j idx 1 = 0 := by
      unfold GatherDims.start
      rw [dif_neg (show (1 : Fin 2) ∉ ([0] : List (Fin 2)) by decide)]
    have ho : (rowDims A B N wf).offCoord j 1 = (j 1).val := by
      unfold GatherDims.offCoord
      rw [dif_pos ((GatherDims.mem_sKept _ _).mpr ⟨(show (1 : Fin 2) ∉ ([0] : List (Fin 2)) by decide), List.not_mem_nil⟩)]
      rfl
    rw [hs, ho]; omega

end Gather

section Scatter

/-- The dimension numbers of `y.at[idx].add(u)` (whole rows) for an operand `[A, B]`, scatter indices `[N, 1]`, updates
    `[N, B]`. -/
abbrev rowScatterDims (A B N : Nat) (wf : ScatterDims.WF ⟨2, ![A, B]⟩ ⟨2, ![N, 1]⟩ ⟨2, ![N, B]⟩ [1] [0] [0] 1) :
    ScatterDims ⟨2, ![A, B]⟩ ⟨2, ![N, 1]⟩ ⟨2, ![N, B]⟩ where
  updateWindowDims := [1]
  insertedWindowDims := [0]
  scatterDimsToOperandDims := [0]
  indexVectorDim := 1
  wf := wf

variable {A B N w : Nat} (wf : ScatterDims.WF ⟨2, ![A, B]⟩ ⟨2, ![N, 1]⟩ ⟨2, ![N, B]⟩ [1] [0] [0] 1)
  (idx : IVec ⟨2, ![N, 1]⟩ w) (j : (⟨2, ![N, B]⟩ : Shape).Idx)

theorem start_row : (rowScatterDims A B N wf).start j idx 0 = (idx (colIdx (j 0))).toInt := by
  unfold ScatterDims.start
  rw [dif_pos (show (0 : Fin 2) ∈ (rowScatterDims A B N wf).scatterDimsToOperandDims from List.mem_singleton.mpr rfl)]
  have hsi : (rowScatterDims A B N wf).siIdx j ⟨List.idxOf (0 : Fin 2) (rowScatterDims A B N wf).scatterDimsToOperandDims,
      List.idxOf_lt_length_iff.2 (List.mem_singleton.mpr rfl)⟩ = colIdx (j 0) := by
    funext b; refine Fin.ext ?_
    match b with
    | ⟨0, _⟩ => rfl
    | ⟨1, _⟩ => rfl
  rw [hsi]
  rfl

theorem start_col : (rowScatterDims A B N wf).start j idx 1 = 0 := by
  unfold ScatterDims.start
  rw [dif_neg (show (1 : Fin 2) ∉ ([0] : List (Fin 2)) by decide)]

/-- The operand's axes that take a window coordinate: the column axis only (the row axis is inserted). -/
theorem mem_sKept_row (a : Fin 2) : a ∈ (rowScatterDims A B N wf).sKept ↔ a ∉ ([0] : List (Fin 2)) := by
  simp [ScatterDims.sKept, Shape.kept, List.mem_filter, List.mem_finRange]

theorem window_row : (rowScatterDims A B N wf).window j 0 = 0 := by
  unfold ScatterDims.window
  rw [dif_neg (fun h => ((mem_sKept_row wf 0).mp h) (List.mem_singleton.mpr rfl))]

theorem window_col : (rowScatterDims A B N wf).window j 1 = (j 1).val := by
  unfold ScatterDims.window
  rw [dif_pos ((mem_sKept_row wf 1).mpr (by decide))]
  rfl

/-- Update element `(s, b)` lands at `i` exactly when slot `s`'s index, read signed, is `i`'s row, and `b` is `i`'s column. -/
theorem resultIdx?_row_eq_some_iff (i : (⟨2, ![A, B]⟩ : Shape).Idx) :
    (rowScatterDims A B N wf).resultIdx? j idx = some i
      ↔ (idx (colIdx (j 0))).toInt = ((i 0).val : Int) ∧ (j 1).val = (i 1).val := by
  have hi0 : (i 0).val < A := idx2_lt0 i
  have hj1 : (j 1).val < B := idx2_lt1 j
  unfold ScatterDims.resultIdx?
  split
  · rename_i h
    rw [Option.some.injEq]
    constructor
    · intro e
      have e0 := congrArg (fun f => (f 0).val) e
      have e1 := congrArg (fun f => (f 1).val) e
      simp only [start_row, start_col, window_row, window_col] at e0 e1
      have h0 := h 0
      simp only [start_row, window_row] at h0
      constructor
      · omega
      · omega
    · rintro ⟨e0, e1⟩
      funext a
      refine Fin.ext ?_
      match a with
      | ⟨0, _⟩ =>
        show ((rowScatterDims A B N wf).start j idx 0 + ((rowScatterDims A B N wf).window j 0 : Int)).toNat = (i 0).val
        rw [start_row, window_row]; omega
      | ⟨1, _⟩ =>
        show ((rowScatterDims A B N wf).start j idx 1 + ((rowScatterDims A B N wf).window j 1 : Int)).toNat = (i 1).val
        rw [start_col, window_col]; omega
  · rename_i h
    constructor
    · intro e; exact absurd e (by simp)
    · rintro ⟨e0, e1⟩
      refine absurd (fun a => ?_) h
      match a with
      | ⟨0, _⟩ =>
        show 0 ≤ (rowScatterDims A B N wf).start j idx 0 + ((rowScatterDims A B N wf).window j 0 : Int)
          ∧ (rowScatterDims A B N wf).start j idx 0 + ((rowScatterDims A B N wf).window j 0 : Int) < (A : Int)
        rw [start_row, window_row]; omega
      | ⟨1, _⟩ =>
        show 0 ≤ (rowScatterDims A B N wf).start j idx 1 + ((rowScatterDims A B N wf).window j 1 : Int)
          ∧ (rowScatterDims A B N wf).start j idx 1 + ((rowScatterDims A B N wf).window j 1 : Int) < (B : Int)
        rw [start_col, window_col]; omega

end Scatter

end Idealize.ShloMosaic.SlotTake

end
-- ==== Proof.RefSlots.lean ====
/-
  The reference, one sorted position at a time.

  Position `s` of the sorted order holds slot `n = σ s` (a bijection `σ` of the 32768 slots). Its score is the
  flattened scores at `n`, that is score `n % 2` of token `n / 2`; its token is `n / 2`; so its contribution to
  column `d` is `x (n / 2, d) * scores (n / 2, n % 2)`, and the scatter index it is added at is the word of `n / 2`.
-/
import proofs.«145637_j22874995818747_2_alg».proof.Proof.RefStages
import proofs.«145637_j22874995818747_2_alg».proof.Proof.Words
import proofs.«145637_j22874995818747_2_alg».proof.Proof.LibArgsort
import proofs.«145637_j22874995818747_2_alg».proof.Proof.LibSlotTake
import Idealize.ShloMosaic.Lib.Pipeline.Value
import Idealize.ShloMosaic.Lib.ValueIdx

noncomputable section

namespace Cert.ReferenceIdeal.Slots

open Idealize.ShloMosaic Idealize.ShloMosaic.ValueIdx Idealize.ShloMosaic.SlotTake
open Cert.ReferenceIdeal Cert.ReferenceIdeal.Gen Cert.ReferenceIdeal.Stages Cert.ReferenceIdeal.Words

/-! ## Layout -/

/-- The column of indices at `(s, 0)` is the vector at `s`. -/
theorem col_apply (v : IVec S32768 32) (s : Fin 32768) : col v (colIdx s) = v (ix1 s) := by
  unfold col
  refine broadcastInDim_apply _ _ v (colIdx s) (ix1 s) (fun a => ?_)
  match a with
  | ⟨0, _⟩ => show s.val = if (32768 : Nat) = 1 then 0 else s.val; rw [if_neg (by decide)]

/-- The flattened scores at slot `n`: score `n % 2` of token `n / 2`. -/
theorem flatScores_apply (ts : FVec Ideal S16384x2 .f32) (n : Fin 32768) :
    flatScores ts (ix1 n) = ts (ix2 (⟨n.val / 2, by omega⟩ : Fin 16384) (⟨n.val % 2, by omega⟩ : Fin 2)) := by
  unfold flatScores
  refine shapeCast_apply ts _ (ix1 n) _ ?_
  rw [Shape.rowMajor_val_two, Shape.rowMajor_val_one]
  show n.val / 2 * 2 + n.val % 2 = n.val
  omega

/-- A vector of per-position scalars laid along the rows of a `[32768, 4096]` array, at `(s, d)`: the scalar of `s`. -/
theorem rows_apply (v : FVec Ideal S32768 .f32) (s : Fin 32768) (d : Fin 4096) :
    broadcastInDim S32768x4096 ![0, 1] bcast_S32768x1_S32768x4096_0_1
      (broadcastInDim S32768x1 ![0] bcast_S32768_S32768x1_0 v) (ix2 s d) = v (ix1 s) := by
  refine (broadcastInDim_apply _ _ _ (ix2 s d) (ix2 s (0 : Fin 1)) (fun a => ?_)).trans ?_
  · match a with
    | ⟨0, _⟩ => show s.val = if (32768 : Nat) = 1 then 0 else s.val; rw [if_neg (by decide)]
    | ⟨1, _⟩ => show 0 = if (1 : Nat) = 1 then 0 else d.val; rw [if_pos rfl]
  · refine broadcastInDim_apply _ _ v (ix2 s (0 : Fin 1)) (ix1 s) (fun a => ?_)
    match a with
    | ⟨0, _⟩ => show s.val = if (32768 : Nat) = 1 then 0 else s.val; rw [if_neg (by decide)]

/-- A number below the extent, read back from its signed word and clamped into the axis, is itself. -/
theorem clamp_natCast (n A : Nat) (h : n < A) : min (Int.toNat (n : Int)) (A - 1) = n := by
  rw [Int.toNat_natCast]; omega

/-! ## The sort's permutation -/

/-- The argsort's result is the word of `σ s` at every position `s`, for a bijection `σ` of the slots. -/
theorem order_perm (ids : IVec S16384x2 32) :
    ∃ σ : Fin 32768 → Fin 32768, Function.Bijective σ ∧ ∀ s : Fin 32768, order ids (ix1 s) = BitVec.ofNat 32 (σ s).val := by
  obtain ⟨σ, hσ, h⟩ := Host.sort2_iota_snd (n := 32768) comparator_i32_i32_d0 (flatIds ids)
  exact ⟨σ, hσ, fun s => h (ix1 s)⟩

/-! ## One position, given its slot -/

section
variable (ids : IVec S16384x2 32) (s : Fin 32768) (n : Fin 32768) (hn : order ids (ix1 s) = BitVec.ofNat 32 n.val)
include hn

/-- The index the score gather reads at position `s`: the word of the slot. -/
theorem scoreIdx_apply : col (wrap 32768#32 (order ids)) (colIdx s) = BitVec.ofNat 32 n.val := by
  rw [col_apply]; exact wrap_apply _ _ _ n.val (by omega) hn

/-- The position's token: the word of half the slot. -/
theorem token_apply : token ids (ix1 s) = BitVec.ofNat 32 (n.val / 2) :=
  floorDiv2_apply (order ids) (ix1 s) n.val (by omega) hn

/-- The index the row gather and the scatter read at position `s`: the word of half the slot. -/
theorem tokenIdx_apply : col (wrap 16384#32 (token ids)) (colIdx s) = BitVec.ofNat 32 (n.val / 2) := by
  rw [col_apply]; exact wrap_apply _ _ _ (n.val / 2) (by omega) (token_apply ids s n hn)

/-- The position's score: score `n % 2` of token `n / 2`. -/
theorem sortedScores_apply (ts : FVec Ideal S16384x2 .f32) :
    sortedScores ts ids (ix1 s) = ts (ix2 (⟨n.val / 2, by omega⟩ : Fin 16384) (⟨n.val % 2, by omega⟩ : Fin 2)) := by
  unfold sortedScores
  refine (gather_flat_apply (M := 32768) (N := 32768) (by omega) gather_S32768_S32768x1_S32768_n_0_n_n_0_1_1_wf
    (flatScores ts) (col (wrap 32768#32 (order ids))) (ix1 s)).trans ?_
  refine (congrArg (flatScores ts) (congrArg ix1 (Fin.ext ?_))).trans (flatScores_apply ts n)
  have e : col (wrap 32768#32 (order ids)) (colIdx s) = BitVec.ofNat 32 n.val := scoreIdx_apply ids s n hn
  show min (col (wrap 32768#32 (order ids)) (colIdx s)).toInt.toNat (32768 - 1) = n.val
  rw [e, toInt_ofNat n.val (by have := n.isLt; omega)]
  exact clamp_natCast n.val 32768 n.isLt

/-- The position's contribution to column `d`: `x (n / 2, d) * scores (n / 2, n % 2)`. -/
theorem routed_apply (x : FVec Ideal S16384x4096 .f32) (ts : FVec Ideal S16384x2 .f32) (d : Fin 4096) :
    routed x ts ids (ix2 s d)
      = x (ix2 (⟨n.val / 2, by omega⟩ : Fin 16384) d)
        * ts (ix2 (⟨n.val / 2, by omega⟩ : Fin 16384) (⟨n.val % 2, by omega⟩ : Fin 2)) := by
  unfold routed
  rw [mulf_apply, rows_apply, sortedScores_apply ids s n hn ts]
  refine congrArg (· * _) ?_
  refine (gather_row_apply (A := 16384) (B := 4096) (N := 32768) (by omega)
    gather_S16384x4096_S32768x1_S32768x4096_1_0_n_n_0_1_14096_wf x (col (wrap 16384#32 (token ids))) (ix2 s d)).trans ?_
  refine congrArg x (congrArg₂ ix2 (Fin.ext ?_) (Fin.ext rfl))
  have e : col (wrap 16384#32 (token ids)) (colIdx s) = BitVec.ofNat 32 (n.val / 2) := tokenIdx_apply ids s n hn
  show min (col (wrap 16384#32 (token ids)) (colIdx s)).toInt.toNat (16384 - 1) = n.val / 2
  rw [e, toInt_ofNat (n.val / 2) (by have := n.isLt; omega)]
  exact clamp_natCast (n.val / 2) 16384 (by have := n.isLt; omega)

end

end Cert.ReferenceIdeal.Slots

end
-- ==== Proof.LibHalves.lean ====
/-
  Two small laws behind "a token's two slots".

  The slots `0 … 2 n − 1` pair up as `(2 t, 2 t + 1)`: a sum over the slots whose half is `t` has exactly those two
  terms. And on the extended reals multiplication distributes over a sum when the three numbers are finite (it does
  not in general: `x * (∞ + (−∞))` and `x * ∞ + x * (−∞)` differ), which is what lets a row scaled by each score
  separately and added be the row scaled by the scores' sum.
-/
import Mathlib.Data.EReal.Operations
import Mathlib.Algebra.BigOperators.Fin

open scoped BigOperators

namespace Cert.Halves

/-- The sum over the slots whose half is `t`: the two terms at `2 t` and `2 t + 1`. -/
theorem sum_halves {M : Type*} [AddCommMonoid M] (f : Fin 32768 → M) (t : Fin 16384) :
    (∑ j : Fin 32768, if j.val / 2 = t.val then f j else 0)
      = f ⟨2 * t.val, by omega⟩ + f ⟨2 * t.val + 1, by omega⟩ := by
  rw [← Finset.sum_filter]
  have hset : Finset.univ.filter (fun j : Fin 32768 => j.val / 2 = t.val)
      = {(⟨2 * t.val, by omega⟩ : Fin 32768), (⟨2 * t.val + 1, by omega⟩ : Fin 32768)} := by
    ext j
    simp only [Finset.mem_filter, Finset.mem_univ, true_and, Finset.mem_insert, Finset.mem_singleton, Fin.ext_iff]
    omega
  rw [hset, Finset.sum_pair (by simp [Fin.ext_iff])]

/-- Finite extended reals: scaling by each of two numbers and adding (onto zero) is scaling by their sum. -/
theorem zero_add_mul_add {x a b : EReal} (hx : ∃ r : ℝ, x = (r : EReal)) (ha : ∃ r : ℝ, a = (r : EReal))
    (hb : ∃ r : ℝ, b = (r : EReal)) : 0 + (x * a + x * b) = x * (a + b) := by
  obtain ⟨x, rfl⟩ := hx
  obtain ⟨a, rfl⟩ := ha
  obtain ⟨b, rfl⟩ := hb
  rw [zero_add, ← EReal.coe_mul, ← EReal.coe_mul, ← EReal.coe_add, ← EReal.coe_add, ← EReal.coe_mul, mul_add]

end Cert.Halves
-- ==== Proof.RefValue.lean ====
/-
  The reference's combined output is the row-scaled array.

  Entry `(t, d)` of the scatter-add is zero plus the sum of the contributions that land there. Position `s` of the
  sorted order contributes `x (n / 2, d') * scores (n / 2, n % 2)` (`n = σ s` its slot) to `(n / 2, d')`, so the
  contributions landing at `(t, d)` are those of the positions whose slot halves to `t`, in column `d`. Summing
  over positions is summing over slots (`σ` is a bijection), and the slots that halve to `t` are `2 t` and `2 t + 1`:
  the entry is `0 + (x (t, d) * scores (t, 0) + x (t, d) * scores (t, 1))`, which for finite inputs is
  `x (t, d) * (scores (t, 0) + scores (t, 1))`. The order the sort chose plays no part.
-/
import proofs.«145637_j22874995818747_2_alg».proof.Proof.RefSlots
import proofs.«145637_j22874995818747_2_alg».proof.Proof.LibHalves
import proofs.«145637_j22874995818747_2_alg».proof.Proof.RowScale
import Idealize.ShloMosaic.PureOps.Ideal.Laws

noncomputable section

open scoped BigOperators

namespace Cert.ReferenceIdeal.RefValue

open Idealize.ShloMosaic Idealize.ShloMosaic.ValueIdx Idealize.ShloMosaic.SlotTake
open Cert.ReferenceIdeal Cert.ReferenceIdeal.Gen Cert.ReferenceIdeal.Stages Cert.ReferenceIdeal.Words Cert.ReferenceIdeal.Slots

/-- Position `s`'s contribution in column `d'` lands at `(t, d)` exactly when its slot halves to `t` and `d' = d`. -/
theorem lands_iff (ids : IVec S16384x2 32) (σ : Fin 32768 → Fin 32768)
    (hord : ∀ s : Fin 32768, order ids (ix1 s) = BitVec.ofNat 32 (σ s).val)
    (s : Fin 32768) (d' : Fin 4096) (t : Fin 16384) (d : Fin 4096) :
    scatter_S16384x4096_S32768x1_S32768x4096_1_0_0_1.resultIdx? (ix2 s d') (col (wrap 16384#32 (token ids))) = some (ix2 t d)
      ↔ (σ s).val / 2 = t.val ∧ d' = d := by
  refine (resultIdx?_row_eq_some_iff (A := 16384) (B := 4096) (N := 32768)
    scatter_S16384x4096_S32768x1_S32768x4096_1_0_0_1_wf (col (wrap 16384#32 (token ids))) (ix2 s d') (ix2 t d)).trans ?_
  have e : col (wrap 16384#32 (token ids)) (colIdx s) = BitVec.ofNat 32 ((σ s).val / 2) := tokenIdx_apply ids s (σ s) (hord s)
  show (col (wrap 16384#32 (token ids)) (colIdx s)).toInt = (t.val : Int) ∧ d'.val = d.val ↔ _
  rw [e, toInt_ofNat ((σ s).val / 2) (by have := (σ s).isLt; omega)]
  constructor
  · rintro ⟨h1, h2⟩; exact ⟨by exact_mod_cast h1, Fin.ext h2⟩
  · rintro ⟨h1, h2⟩; exact ⟨by exact_mod_cast h1, congrArg Fin.val h2⟩

/-- What slot `n` contributes to column `d`. -/
def contribution (x : FVec Ideal S16384x4096 .f32) (ts : FVec Ideal S16384x2 .f32) (d : Fin 4096) (n : Fin 32768) : EReal :=
  x (ix2 (⟨n.val / 2, by omega⟩ : Fin 16384) d) * ts (ix2 (⟨n.val / 2, by omega⟩ : Fin 16384) (⟨n.val % 2, by omega⟩ : Fin 2))

/-- The output at `(t, d)` before any algebra: zero plus the contributions of token `t`'s two slots. -/
theorem out_apply_sum (x : FVec Ideal S16384x4096 .f32) (ts : FVec Ideal S16384x2 .f32) (ids : IVec S16384x2 32)
    (t : Fin 16384) (d : Fin 4096) :
    Stages.out x ts ids (ix2 t d)
      = 0 + (contribution x ts d ⟨2 * t.val, by omega⟩ + contribution x ts d ⟨2 * t.val + 1, by omega⟩) := by
  obtain ⟨σ, hσ, hord⟩ := order_perm ids
  unfold Stages.out Host.scatterAdd
  rw [Ideal.hostScatterAdd_def]
  unfold Ideal.hostScatterAdd
  have hz : broadcastInDim S16384x4096 ![] bcast_S_S16384x4096 (constant (F := Ideal) S_ .f32 0x00000000#32) (ix2 t d) = 0 :=
    Ideal.ofBits_zero_f32
  rw [hz, Finset.sum_filter, sum_idx2]
  refine congrArg (0 + ·) ?_
  have hterm : ∀ s : Fin 32768,
      (∑ d' : Fin 4096,
        if scatter_S16384x4096_S32768x1_S32768x4096_1_0_0_1.resultIdx? (ix2 s d') (col (wrap 16384#32 (token ids))) = some (ix2 t d)
        then routed x ts ids (ix2 s d') else 0)
      = (fun n : Fin 32768 => if n.val / 2 = t.val then contribution x ts d n else 0) (σ s) := by
    intro s
    simp only [lands_iff ids σ hord s _ t d, routed_apply ids s (σ s) (hord s) x ts]
    by_cases h : (σ s).val / 2 = t.val
    · simp only [h, true_and, if_true]
      rw [Finset.sum_ite_eq' Finset.univ d, if_pos (Finset.mem_univ d)]
      unfold contribution
      simp only [h]
    · simp only [h, false_and, if_false, Finset.sum_const_zero]
  rw [Finset.sum_congr rfl (fun s _ => hterm s),
    hσ.sum_comp (fun n : Fin 32768 => if n.val / 2 = t.val then contribution x ts d n else 0)]
  exact Cert.Halves.sum_halves (contribution x ts d) t

/-- For finite inputs the reference's output is the row-scaled array. -/
theorem out_eq_scaled (x : FVec Ideal S16384x4096 .f32) (ts : FVec Ideal S16384x2 .f32) (ids : IVec S16384x2 32)
    (hx : ∀ i, ∃ r : ℝ, x i = (r : EReal)) (hts : ∀ i, ∃ r : ℝ, ts i = (r : EReal)) :
    Stages.out x ts ids = Cert.RowScale.scaled x ts := by
  funext i
  obtain ⟨t, d, rfl⟩ : ∃ (t : Fin 16384) (d : Fin 4096), i = ix2 t d := ⟨i 0, i 1, eq_ix2 i⟩
  rw [out_apply_sum x ts ids t d]
  unfold contribution Cert.RowScale.scaled
  have e0 : (⟨(2 * t.val) / 2, by omega⟩ : Fin 16384) = t := Fin.ext (by show 2 * t.val / 2 = t.val; omega)
  have e1 : (⟨(2 * t.val + 1) / 2, by omega⟩ : Fin 16384) = t := Fin.ext (by show (2 * t.val + 1) / 2 = t.val; omega)
  have k0 : (⟨(2 * t.val) % 2, by omega⟩ : Fin 2) = 0 := Fin.ext (by show 2 * t.val % 2 = 0; omega)
  have k1 : (⟨(2 * t.val + 1) % 2, by omega⟩ : Fin 2) = 1 := Fin.ext (by show (2 * t.val + 1) % 2 = 1; omega)
  show 0 + (x (ix2 (⟨(2 * t.val) / 2, _⟩ : Fin 16384) d) * ts (ix2 (⟨(2 * t.val) / 2, _⟩ : Fin 16384) (⟨(2 * t.val) % 2, _⟩ : Fin 2))
        + x (ix2 (⟨(2 * t.val + 1) / 2, _⟩ : Fin 16384) d) * ts (ix2 (⟨(2 * t.val + 1) / 2, _⟩ : Fin 16384) (⟨(2 * t.val + 1) % 2, _⟩ : Fin 2)))
      = x (ix2 t d) * (ts (ix2 t 0) + ts (ix2 t 1))
  rw [e0, e1, k0, k1]
  exact Cert.Halves.zero_add_mul_add (hx _) (hts _) (hts _)

end Cert.ReferenceIdeal.RefValue

end
-- ==== Proof.Finite.lean ====
/-
  The precondition, read back: every entry of `x` and of the scores is a real number.

  `finite_inputs` says `all (|x| < +∞) ∧ all (|scores| < +∞)`, as one bit. An `all` that is one has a one at every
  index; `|v| < +∞` on the extended reals (`|v| = max v (−v)`) rules out both infinities, so `v` is a real.
-/
import proofs.«145637_j22874995818747_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Idealize.ShloMosaic Idealize.ShloMosaic.ValueIdx Cert.Pre_finite_inputs Cert.Pre_finite_inputs.Gen

instance : Subsingleton S_.Idx := ⟨fun a b => funext fun d => d.elim0⟩

/-- The `+∞` pattern is the top of the extended reals. -/
theorem ofBits_inf : Ideal.ofBits .f32 0x7F800000#32 = (⊤ : EReal) := by simp [Ideal.ofBits, Ideal.ieee]

/-- `|v| < +∞` makes `v` a real number. -/
theorem real_of_abs_lt_inf (v : EReal)
    (h : Ideal.cmp .olt (max v (-v)) (Ideal.ofBits .f32 0x7F800000#32) = 1#1) : ∃ r : ℝ, v = (r : EReal) := by
  rw [ofBits_inf] at h
  unfold Ideal.cmp at h
  have hlt : max v (-v) < (⊤ : EReal) := by
    by_contra hn
    simp [hn] at h
  induction v using EReal.rec with
  | bot => exact absurd hlt (by simp)
  | top => exact absurd hlt (by simp)
  | coe r => exact ⟨r, rfl⟩

/-- The precondition's bit is one: both float inputs hold real numbers only. -/
theorem real_of_pre (a0 : FVec Ideal S16384x4096 .f32) (a1 : FVec Ideal S16384x2 .f32) (a2 : IVec S16384x2 32) (a3 : IVec S64 32)
    (h : fn (F := Ideal) a0 a1 a2 a3 = fun _ => 1#1) :
    (∀ i, ∃ r : ℝ, a0 i = (r : EReal)) ∧ (∀ i, ∃ r : ℝ, a1 i = (r : EReal)) := by
  have h0 := congrFun h ix0
  dsimp only [fn] at h0
  obtain ⟨h1, h2⟩ := IntOp.andi_eq_one.1 h0
  exact ⟨fun i => real_of_abs_lt_inf _ (Host.reduce_andi_all _ _ _ _ ix0 h1 i),
    fun i => real_of_abs_lt_inf _ (Host.reduce_andi_all _ _ _ _ ix0 h2 i)⟩

end Cert.Pre_finite_inputs.Finite

end
-- ==== Proof.lean ====
/-
  Every row of `x` scaled by the sum of its two scores: the kernel against the sort-gather-scatter reference.

  The kernel multiplies each token's row of `x` by the sum of the token's two scores, one block of 256 rows per grid
  point, and counts the expert ids into 64 bins on the host. The reference sorts the 32768 (token, choice) slots by expert,
  scales each slot's copy of its token's row by the slot's score, and adds the slots' rows back into their tokens' rows of
  a zero array; it counts the ids the same way.

  On the extended reals the two outputs agree entry by entry. The sort only permutes the slots, and the scatter-add sums
  over all of them, so entry `(t, d)` of the reference is `0 + (x (t, d) * s (t, 0) + x (t, d) * s (t, 1))` whatever the
  order was (Proof/RefValue.lean); the kernel's is `x (t, d) * (s (t, 0) + s (t, 1))` (Proof/KernelArray.lean). The two are
  equal because the inputs are finite — the one place the precondition is used (Proof/Finite.lean): multiplication does
  not distribute over a sum of opposite infinities. The two histograms are the same term of the expert ids.

  The kernel's frames are the generated ones; the reference's run is read operation by operation (Proof/RefRun.lean), and
  its frame is that run with the results dropped. The idealization rewrote nothing, so `preserves` is `True`.
-/
import proofs.«145637_j22874995818747_2_alg».proof.Defs
import proofs.«145637_j22874995818747_2_alg».proof.Proof.Gen.Kernel
import proofs.«145637_j22874995818747_2_alg».proof.Proof.Gen.Kernel.Frame
import proofs.«145637_j22874995818747_2_alg».proof.Proof.Gen.KernelIdeal
import proofs.«145637_j22874995818747_2_alg».proof.Proof.Gen.KernelIdeal.Frame
import proofs.«145637_j22874995818747_2_alg».proof.Proof.Gen.KernelIdeal.Value
import proofs.«145637_j22874995818747_2_alg».proof.Proof.Gen.ReferenceIdeal
import proofs.«145637_j22874995818747_2_alg».proof.Proof.Gen.Pre_finite_inputs
import proofs.«145637_j22874995818747_2_alg».proof.Proof.KernelArray
import proofs.«145637_j22874995818747_2_alg».proof.Proof.RefRun
import proofs.«145637_j22874995818747_2_alg».proof.Proof.RefValue
import proofs.«145637_j22874995818747_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with what it says of the two results dropped. -/
theorem frame_reference : Cert.frame_ReferenceIdeal := fun m ρ _ =>
  (θ_run Cert.ReferenceIdeal.defs _ _).mono (fun _ h c => (h c).2.2)
    (Cert.ReferenceIdeal.HandRun.run (F := Ideal) m ρ)

theorem preserves : Cert.preserves_Kernel_KernelIdeal := trivial

attribute [local irreducible] Host.scatterAdd in
/-- The two programs count the expert ids by the same operations: the histograms are one term of the ids. -/
theorem counts_eq (ids : IVec Cert.KernelIdeal.S16384x2 32) :
    Cert.ReferenceIdeal.Stages.counts (F := Ideal) ids = Cert.KernelIdeal.RowScaled.counts ids := rfl

/-- Both runs end with the row-scaled array and the histogram of the ids. -/
theorem algebraic : Cert.algebraic_KernelIdeal_ReferenceIdeal := by
  intro m ρ m' ρ' hpre hagree
  refine ⟨_, _, Cert.KernelIdeal.RowScaled.run m ρ, ?_⟩
  refine (θ_run Cert.ReferenceIdeal.defs _ _).mono (fun r h c => ?_)
    (Cert.ReferenceIdeal.HandRun.run (F := Ideal) m' ρ')
  obtain ⟨hout, hcounts, hargs⟩ := h c
  obtain ⟨hx, hts⟩ := Cert.Pre_finite_inputs.Finite.real_of_pre _ _ _ _ (hpre c)
  refine ⟨?_, ?_, hargs⟩
  · rw [hout, (hagree c).1, (hagree c).2.1, (hagree c).2.2.1]
    exact Cert.ReferenceIdeal.RefValue.out_eq_scaled _ _ _ hx hts
  · rw [hcounts, (hagree c).2.2.1]
    exact counts_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
